-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x64 : Shape := ⟨3, ![4, 1024, 64]⟩
abbrev S64x128 : Shape := ⟨2, ![64, 128]⟩
abbrev S64 : Shape := ⟨1, ![64]⟩
abbrev S_ : Shape := ⟨0, ![]⟩

class Facts : Prop where
  bcast_S_S4x1024x64 : S_.BroadcastsInDim S4x1024x64 (![] : Fin 0 → Fin S4x1024x64.rank)
  reducesTo_S4x1024x64_S_d0_1_2 : S4x1024x64.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S4x1024x64 .f32) (main_arg1 : FVec F S64x128 .f32) (main_arg2 : FVec F S64 .f32) : IVec S_ 1 :=
  let main_v0 : FVec F S4x1024x64 .f32 := Host.absf main_arg0
  let main_cst : FVec F S_ .f32 := constant S_ .f32 0x7F800000#32
  let main_v1 : FVec F S4x1024x64 .f32 := broadcastInDim S4x1024x64 ![] bcast_S_S4x1024x64 main_cst
  let main_v2 : IVec S4x1024x64 1 := cmpf .olt main_v0 main_v1
  let main_c : IVec S_ 1 := constantI S_ 1 1#1
  let main_v3 : IVec S_ 1 := (fun x v => Host.reduce IntOp.andi x v reducesTo_S4x1024x64_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S4x1024x64 : Shape := ⟨3, ![4, 1024, 64]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S2x1024x64 : Shape := ⟨3, ![2, 1024, 64]⟩
abbrev S2048x64 : Shape := ⟨2, ![2048, 64]⟩
abbrev S2048x128 : Shape := ⟨2, ![2048, 128]⟩
abbrev S2x1024x128 : Shape := ⟨3, ![2, 1024, 128]⟩
abbrev S2x64 : Shape := ⟨2, ![2, 64]⟩
abbrev S2x1x64 : Shape := ⟨3, ![2, 1, 64]⟩
abbrev S1x1x64 : Shape := ⟨3, ![1, 1, 64]⟩

abbrev nBuf : Space → Nat
  | .hbm => 10
  | .vmem => 6
  | .smem => 0
  | _ => 0

abbrev bufTy : (tb : Table) → Fin (tcTables nBuf tb) → BufTy
  | .hbm, ⟨0, _⟩ => ⟨S4x1024x64, .f32⟩
  | .hbm, ⟨1, _⟩ => ⟨S64x128, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x128, .f32⟩
  | .hbm, ⟨8, _⟩ => ⟨S1x64, .f32⟩
  | .hbm, ⟨9, _⟩ => ⟨S4x1024x64, .f32⟩
  | .local _ .vmem, ⟨0, _⟩ => ⟨S2x1024x64, .f32⟩
  | .local _ .vmem, ⟨1, _⟩ => ⟨S2x1024x64, .f32⟩
  | .local _ .vmem, ⟨2, _⟩ => ⟨S64x128, .f32⟩
  | .local _ .vmem, ⟨3, _⟩ => ⟨S1x64, .f32⟩
  | .local _ .vmem, ⟨4, _⟩ => ⟨S2x1024x64, .f32⟩
  | .local _ .vmem, ⟨5, _⟩ => ⟨S2x1024x64, .f32⟩
  | _, _ => ⟨S4x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S64x128_S64x64_0_0 : S64x128.Slices ![0, 0] S64x64
  transposes_S64x64_S64x64_1_0 : S64x64.Transposes [1, 0] S64x64
  slices_S64x128_S64x64_0_64 : S64x128.Slices ![0, 64] S64x64
  concatenates_S64x64_S64x64_S64x128_d1 : Shape.Concatenates [S64x64, S64x64] S64x128 1
  shapeCasts_S64_S1x64 : S64.ShapeCasts S1x64
  inb_S2x1024x64_S2x1024x64_0_0_0 : ∀ a, (![0, 0, 0] : Fin 3 → Nat) a + S2x1024x64.size a ≤ S2x1024x64.size a
  h_S2x1024x64 : 0 < S2x1024x64.numel
  shapeCasts_S2x1024x64_S2048x64 : S2x1024x64.ShapeCasts S2048x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  shapeCasts_S2048x128_S2x1024x128 : S2048x128.ShapeCasts S2x1024x128
  slices_S2x1024x128_o0_0_0_S2x1024x64 : S2x1024x128.Slices ![0, 0, 0] S2x1024x64
  slices_S2x1024x128_o0_0_64_S2x1024x64 : S2x1024x128.Slices ![0, 0, 64] S2x1024x64
  reduces_S2x1024x64_S2x64 : S2x1024x64.Reduces [1] S2x64
  shapeCasts_S2x64_S2x1x64 : S2x64.ShapeCasts S2x1x64
  broadcasts_S2x1x64_S2x1024x64 : S2x1x64.Broadcasts S2x1024x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S1x64_S1x1x64 : S1x64.ShapeCasts S1x1x64
  broadcasts_S1x1x64_S2x1024x64 : S1x1x64.Broadcasts S2x1024x64
  dot_S2048x64_S64x128_S2048x128_1_0_0_1_n_n_wf : DotDims.WF S2048x64 S64x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x64.size a ≤ S4x1024x64.size a
  hwx0_0 : ∀ i : grid0.Coords, EltTy.bits .f32 = 32 ∨ (Rect.block (s := S4x1024x64) S2x1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x1024x64.size a ≤ S4x1024x64.size a
  hwx0_3 : ∀ i : grid0.Coords, EltTy.bits .f32 = 32 ∨ (Rect.block (s := S4x1024x64) S2x1024x64.size (cc0_transform_3 i) (hinb0_3 i)).WholeWords (EltTy.packing .f32)

variable [Facts₀]

def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf

abbrev win0_0 : Pipeline.Window sig grid0 :=
  Pipeline.Window.ofSpec (Memref.whole main_arg0) S2x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S2x1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x1024x64 : Shape := ⟨3, ![4, 1024, 64]⟩
abbrev S64x128 : Shape := ⟨2, ![64, 128]⟩
abbrev S64 : Shape := ⟨1, ![64]⟩
abbrev S64x64 : Shape := ⟨2, ![64, 64]⟩
abbrev S4x1024x1x64 : Shape := ⟨4, ![4, 1024, 1, 64]⟩
abbrev S4x1x1024x64 : Shape := ⟨4, ![4, 1, 1024, 64]⟩
abbrev S4x1024x1024x64 : Shape := ⟨4, ![4, 1024, 1024, 64]⟩
abbrev S1x1x1x64 : Shape := ⟨4, ![1, 1, 1, 64]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x1024x64, .f32⟩
  | .hbm, ⟨1, _⟩ => ⟨S64x128, .f32⟩
  | .hbm, ⟨2, _⟩ => ⟨S64, .f32⟩
  | .hbm, ⟨3, _⟩ => ⟨S64x64, .f32⟩
  | .hbm, ⟨4, _⟩ => ⟨S64x64, .f32⟩
  | .hbm, ⟨5, _⟩ => ⟨S4x1024x64, .f32⟩
  | .hbm, ⟨6, _⟩ => ⟨S4x1024x64, .f32⟩
  | .hbm, ⟨7, _⟩ => ⟨S4x1024x1x64, .f32⟩
  | .hbm, ⟨8, _⟩ => ⟨S4x1x1024x64, .f32⟩
  | .hbm, ⟨9, _⟩ => ⟨S4x1024x1024x64, .f32⟩
  | .hbm, ⟨10, _⟩ => ⟨S4x1024x1024x64, .f32⟩
  | .hbm, ⟨11, _⟩ => ⟨S4x1024x1024x64, .f32⟩
  | .hbm, ⟨12, _⟩ => ⟨S1x1x1x64, .f32⟩
  | .hbm, ⟨13, _⟩ => ⟨S4x1024x1024x64, .f32⟩
  | .hbm, ⟨14, _⟩ => ⟨S4x1024x1024x64, .f32⟩
  | .hbm, ⟨15, _⟩ => ⟨S_, .f32⟩
  | .hbm, ⟨16, _⟩ => ⟨S4x1024x64, .f32⟩
  | _, _ => ⟨S4x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  slices_S64x128_S64x64_0_0 : S64x128.Slices ![0, 0] S64x64
  slices_S64x128_S64x64_0_64 : S64x128.Slices ![0, 64] S64x64
  bcast_S4x1024x64_S4x1024x1x64_0_1_3 : S4x1024x64.BroadcastsInDim S4x1024x1x64 (![0, 1, 3] : Fin 3 → Fin S4x1024x1x64.rank)
  bcast_S4x1024x64_S4x1x1024x64_0_2_3 : S4x1024x64.BroadcastsInDim S4x1x1024x64 (![0, 2, 3] : Fin 3 → Fin S4x1x1024x64.rank)
  bcast_S4x1024x1x64_S4x1024x1024x64_0_1_2_3 : S4x1024x1x64.BroadcastsInDim S4x1024x1024x64 (![0, 1, 2, 3] : Fin 4 → Fin S4x1024x1024x64.rank)
  bcast_S4x1x1024x64_S4x1024x1024x64_0_1_2_3 : S4x1x1024x64.BroadcastsInDim S4x1024x1024x64 (![0, 1, 2, 3] : Fin 4 → Fin S4x1024x1024x64.rank)
  bcast_S64_S1x1x1x64_3 : S64.BroadcastsInDim S1x1x1x64 (![3] : Fin 1 → Fin S1x1x1x64.rank)
  bcast_S1x1x1x64_S4x1024x1024x64_0_1_2_3 : S1x1x1x64.BroadcastsInDim S4x1024x1024x64 (![0, 1, 2, 3] : Fin 4 → Fin S4x1024x1024x64.rank)
  reducesTo_S4x1024x1024x64_S4x1024x64_d1 : S4x1024x1024x64.ReducesTo [1] S4x1024x64
  h_S_ : 0 < S_.numel
  dot_S4x1024x64_S64x64_S4x1024x64_2_1_01_0_n_n_wf : DotDims.WF S4x1024x64 S64x64 S4x1024x64 [2] [1] [0, 1] [0] [] []

variable [Facts₀]

def dot_S4x1024x64_S64x64_S4x1024x64_2_1_01_0_n_n : DotDims S4x1024x64 S64x64 S4x1024x64 where
  lhsContracting := [2]
  rhsContracting := [1]
  lhsNonContracting := [0, 1]
  rhsNonContracting := [0]
  lhsBatch := []
  rhsBatch := []
  wf := dot_S4x1024x64_S64x64_S4x1024x64_2_1_01_0_n_n_wf

class Facts : Prop extends Facts₀ where

variable [Facts]
-- ==== Proof.LibFoldMax.lean ====
import Idealize.ShloMosaic.PureOps.Ideal

/-!
# A maximum from `-∞` commutes with a monotone map that fixes `-∞`

On the extended reals, a finite maximum taken from `-∞` (a fold of `max` from `⊥`) commutes with every monotone map
`g` with `g ⊥ = ⊥`: `max_i g (f i) = g (max_i f i)`, the empty maximum included (`fold_max_map`). Adding a constant
is such a map — `⊥ + c = ⊥` for every `c`, `⊤` included — so terms that do not depend on the index come out of the maximum
with no finiteness assumption (`fold_max_add`, `fold_max_add_add`), also when the fold starts from the f32 pattern of
`-∞` (`negInf_eq_bot`, `fold_max_add_add_negInf`). General: nothing here depends on a particular program.
-/

namespace Cert.LibFoldMax

open Idealize.ShloMosaic

/-- The f32 pattern of `-∞` is the bottom of the extended reals. -/
theorem negInf_eq_bot : Ideal.ofBits .f32 0xFF800000#32 = (⊥ : EReal) := by
  simp [Ideal.ofBits, Ideal.ieee]

/-- A maximum from `-∞` commutes with a monotone map that fixes `-∞`. -/
theorem fold_max_map {ι : Type} (s : Finset ι) (f : ι → EReal) (g : EReal → EReal) (hg : Monotone g) (hbot : g ⊥ = ⊥) :
    s.fold max (⊥ : EReal) (fun i => g (f i)) = g (s.fold max (⊥ : EReal) f) := by
  have h := Finset.fold_hom (op := max) (op' := max) (s := s) (b := (⊥ : EReal)) (f := f) (m := g) (fun u v => hg.map_max)
  rw [hbot] at h
  exact h

/-- A maximum from `-∞` of terms `f i + c` is the maximum of the `f i`, then `+ c`. -/
theorem fold_max_add {ι : Type} (s : Finset ι) (f : ι → EReal) (c : EReal) :
    s.fold max (⊥ : EReal) (fun i => f i + c) = s.fold max (⊥ : EReal) f + c :=
  fold_max_map s f (fun y => y + c) (fun u v h => add_le_add h le_rfl) (EReal.bot_add c)

/-- A maximum from `-∞` of terms `(f i + c) + e` is the maximum of the `f i`, then `+ c`, then `+ e`. -/
theorem fold_max_add_add {ι : Type} (s : Finset ι) (f : ι → EReal) (c e : EReal) :
    s.fold max (⊥ : EReal) (fun i => (f i + c) + e) = (s.fold max (⊥ : EReal) f + c) + e :=
  fold_max_map s f (fun y => (y + c) + e) (fun u v h => add_le_add (add_le_add h le_rfl) le_rfl)
    (by rw [EReal.bot_add, EReal.bot_add])

/-- The same from the f32 pattern of `-∞`. -/
theorem fold_max_add_add_negInf {ι : Type} (s : Finset ι) (f : ι → EReal) (c e : EReal) :
    s.fold max (Ideal.ofBits .f32 0xFF800000#32) (fun i => (f i + c) + e)
      = (s.fold max (Ideal.ofBits .f32 0xFF800000#32) f + c) + e := by
  rw [negInf_eq_bot]; exact fold_max_add_add s f c e

end Cert.LibFoldMax
-- ==== Proof.PairPool.lean ====
import proofs.«102570_j78718160601617_2_alg».proof.Proof.LibFoldMax
import Idealize.ShloMosaic.Lib.ValueIdx
import Idealize.ShloMosaic.PureOps.Ideal.Laws

/-!
# Pairwise linear layer, pooled by a maximum over the first member of the pair

For `x : [4, 1024, 64]`, a weight `W : [64, 128]` whose row `o` is the concatenation of two rows of length 64, and a
bias `b : [64]`, put

* `rowTerm b i o = ∑ d, x[b,i,d] · W[o, d]` (the first half of the weight row, applied to the first member `i`),
* `colTerm b j o = ∑ d, x[b,j,d] · W[o, 64 + d]` (the second half, applied to the second member `j`).

The layer applied to the pair `(i, j)` is `(rowTerm b i o + colTerm b j o) + bias o`, and the pooled result at `(b, j, o)`
is its maximum over `i`, taken from `-∞`. Because `y ↦ (y + c) + e` is monotone on the extended reals and sends
`-∞` to `-∞` (the sum of `-∞` and anything is `-∞` there), the maximum can be taken of `rowTerm` alone and the
two other terms added afterwards (`Cert.LibFoldMax.fold_max_add_add`). No entry needs to be finite for this.
-/

noncomputable section

namespace Cert.PairPool

open Idealize.ShloMosaic Idealize.ShloMosaic.ValueIdx

/-- Column `d` of the first half of a weight row. -/
abbrev lo (d : Fin 64) : Fin 128 := ⟨d.val, by have := d.isLt; omega⟩
/-- Column `d` of the second half of a weight row. -/
abbrev hi (d : Fin 64) : Fin 128 := ⟨64 + d.val, by have := d.isLt; omega⟩

variable (x : (⟨3, ![4, 1024, 64]⟩ : Shape).Idx → EReal) (W : (⟨2, ![64, 128]⟩ : Shape).Idx → EReal)
  (bias : (⟨1, ![64]⟩ : Shape).Idx → EReal)

/-- The first half of weight row `o` applied to `x[b, i, ·]`. -/
def rowTerm (b : Fin 4) (i : Fin 1024) (o : Fin 64) : EReal := ∑ d : Fin 64, x (ix3 b i d) * W (ix2 o (lo d))

/-- The second half of weight row `o` applied to `x[b, j, ·]`. -/
def colTerm (b : Fin 4) (j : Fin 1024) (o : Fin 64) : EReal := ∑ d : Fin 64, x (ix3 b j d) * W (ix2 o (hi d))

/-- The pooled layer at explicit coordinates: the maximum over `i` of `rowTerm`, then the two terms that do not
    depend on `i`. -/
def pooledAt (b : Fin 4) (j : Fin 1024) (o : Fin 64) : EReal :=
  ((Finset.univ : Finset (Fin 1024)).fold max (Ideal.ofBits .f32 0xFF800000#32) (fun i => rowTerm x W b i o)
    + colTerm x W b j o) + bias (ix1 o)

/-- The pooled layer as an array `[4, 1024, 64]`. -/
def pooled : (⟨3, ![4, 1024, 64]⟩ : Shape).Idx → EReal := fun k => pooledAt x W bias (k 0) (k 1) (k 2)

theorem pooled_ix3 (b : Fin 4) (j : Fin 1024) (o : Fin 64) : pooled x W bias (ix3 b j o) = pooledAt x W bias b j o := rfl

end Cert.PairPool

end
-- ==== Proof.RefPooled.lean ====
import proofs.«102570_j78718160601617_2_alg».proof.Proof.Gen.ReferenceIdeal.Read
import proofs.«102570_j78718160601617_2_alg».proof.Proof.PairPool
import Idealize.ShloMosaic.PureOps.Ideal.Laws

/-!
# The reference computes the pooled layer

The reference forms, for every pair `(i, j)` of a batch element `b`, the sum
`(rowTerm b i o + colTerm b j o) + bias o` as an array `[4, 1024, 1024, 64]` (two contractions of `x` with the two
halves of the weight rows, each broadcast along the axis it does not depend on, and the bias broadcast along all
three), and reduces it by a maximum from `-∞` over the axis of `i`. At the index `(b, j, o)` that reduction is the
maximum over `i` of those sums (`pair_at`, `lift_eq`), and the two terms without `i` come out of the maximum
(`Cert.LibFoldMax.fold_max_add_add_negInf`): the result is `Cert.PairPool.pooled`.
-/

noncomputable section

namespace Cert.ReferenceIdeal.RefPooled

open Cert.ReferenceIdeal Cert.ReferenceIdeal.Gen Cert.ReferenceIdeal.Read
open Idealize.ShloMosaic Idealize.ShloMosaic.ValueIdx Cert.PairPool Cert.LibFoldMax

/-- Dropping the axis of `i` from `[4, 1024, 1024, 64]` leaves `[4, 1024, 64]`. -/
theorem reduces : S4x1024x1024x64.Reduces [1] S4x1024x64 := by decide

/-- The index `(b, j, o)` with the coordinate `k` put back on the reduced axis is `(b, k, j, o)`. -/
theorem lift_eq (b : Fin 4) (j : Fin 1024) (o : Fin 64) (k : Fin (S4x1024x1024x64.size 1)) :
    reduces.lift (ix3 b j o) k = ix4 b (⟨k.val, k.isLt⟩ : Fin 1024) j o := by
  funext c; apply Fin.ext
  fin_cases c <;> rfl

/-- The reduced array at `(b, k, j, o)`: the layer applied to the pair `(k, j)`. -/
theorem pair_at (x0 : (⟨S4x1024x64, .f32⟩ : BufTy).Contents (Elt Ideal)) (x1 : (⟨S64x128, .f32⟩ : BufTy).Contents (Elt Ideal))
    (x2 : (⟨S64, .f32⟩ : BufTy).Contents (Elt Ideal)) (b : Fin 4) (k j : Fin 1024) (o : Fin 64) :
    val_main_v11 (F := Ideal) x0 x1 x2 (ix4 b k j o) = (rowTerm x0 x1 b k o + colTerm x0 x1 b j o) + x2 (ix1 o) := by
  rw [val_main_v11_apply, val_main_v8_apply, val_main_v6_apply, val_main_v4_apply, val_main_v2_apply,
    val_main_v7_apply, val_main_v5_apply, val_main_v3_apply, val_main_v10_apply, val_main_v9_apply]
  simp only [val_main_v0_apply, val_main_v1_apply]
  have e1 : ∀ d : Fin 64, lidx_main_v2 (idx_main_v4 (idx_main_v6 (ix4 b k j o))) d = ix3 b k d := fun d =>
    funext fun a => Fin.ext (by match a with | ⟨0, _⟩ => rfl | ⟨1, _⟩ => rfl | ⟨2, _⟩ => rfl)
  have e2 : ∀ d : Fin 64, idx_main_v0 (ridx_main_v2 (idx_main_v4 (idx_main_v6 (ix4 b k j o))) d) = ix2 o (lo d) := fun d =>
    funext fun a => Fin.ext (by match a with | ⟨0, _⟩ => rfl | ⟨1, _⟩ => rfl)
  have e3 : ∀ d : Fin 64, lidx_main_v3 (idx_main_v5 (idx_main_v7 (ix4 b k j o))) d = ix3 b j d := fun d =>
    funext fun a => Fin.ext (by match a with | ⟨0, _⟩ => rfl | ⟨1, _⟩ => rfl | ⟨2, _⟩ => rfl)
  have e4 : ∀ d : Fin 64, idx_main_v1 (ridx_main_v3 (idx_main_v5 (idx_main_v7 (ix4 b k j o))) d) = ix2 o (hi d) := fun d =>
    funext fun a => Fin.ext (by match a with | ⟨0, _⟩ => rfl | ⟨1, _⟩ => rfl)
  have e5 : idx_main_v9 (idx_main_v10 (ix4 b k j o)) = ix1 o :=
    funext fun a => Fin.ext (by match a with | ⟨0, _⟩ => rfl)
  simp only [e1, e2, e3, e4, e5]
  rfl

/-- The reference's result is the pooled layer of its three arguments. -/
theorem ref_eq_pooled (x0 : (⟨S4x1024x64, .f32⟩ : BufTy).Contents (Elt Ideal)) (x1 : (⟨S64x128, .f32⟩ : BufTy).Contents (Elt Ideal))
    (x2 : (⟨S64, .f32⟩ : BufTy).Contents (Elt Ideal)) :
    val_main_v12 (F := Ideal) x0 x1 x2 = pooled x0 x1 x2 := by
  funext i
  obtain ⟨b, j, o, rfl⟩ : ∃ (b : Fin 4) (j : Fin 1024) (o : Fin 64), i = ix3 b j o := ⟨i 0, i 1, i 2, eq_ix3 i⟩
  unfold val_main_v12
  rw [Host.reduce_eq_fold_single FloatOps.maximumf _ _ _ reduces h_S_ (ix3 b j o), pooled_ix3]
  unfold pooledAt
  have hf : (val_main_v11 (F := Ideal) x0 x1 x2 ∘ reduces.lift (ix3 b j o))
      = fun k : Fin 1024 => (rowTerm x0 x1 b k o + colTerm x0 x1 b j o) + x2 (ix1 o) := funext fun k => by
    show val_main_v11 (F := Ideal) x0 x1 x2 (reduces.lift (ix3 b j o) k) = _
    rw [lift_eq]; exact pair_at x0 x1 x2 b _ j o
  rw [hf]
  exact fold_max_add_add_negInf _ _ _ _

end Cert.ReferenceIdeal.RefPooled

end
-- ==== Proof.LibProductAt.lean ====
/-
  A matrix product read at an index.

  Dimension numbers of a product [A, K] × [K, B] → [A, B] that contract the left factor's axis 1 with the right factor's
  axis 0, with no batch axis, index the two factors at the result index (p, q) and the contraction index k by (p, k) and
  (k, q). So any sum over the contraction index — a product into a zero accumulator, a host dot_general — is the sum
  over k < K of l (p, k) · r (k, q), and in particular reads only row p of the left factor and column q of the right one.
  General: nothing here depends on a particular program. An instance supplies the two kept coordinates (`hl0`, `hr1`:
  each is `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.ProductAt

open Idealize.ShloMosaic

/-- The index (p, q) of a two-axis shape, from the two numbers and their bounds. -/
abbrev at2 {n0 n1 : Nat} (p : Nat) (hp : p < n0) (q : Nat) (hq : q < n1) : (⟨2, ![n0, n1]⟩ : Shape).Idx := fun a => match a with
  | ⟨0, _⟩ => ⟨p, hp⟩
  | ⟨1, _⟩ => ⟨q, hq⟩

/-- Equal coordinates give the same index. -/
theorem at2_congr {n0 n1 : Nat} {p p' q q' : Nat} (hp : p < n0) (hp' : p' < n0) (hq : q < n1) (hq' : q' < n1)
    (ep : p = p') (eq : q = q') : (at2 p hp q hq : (⟨2, ![n0, n1]⟩ : Shape).Idx) = at2 p' hp' q' hq' := by
  subst ep; subst eq; rfl

/-- Every index of a two-axis shape is the index of its two coordinates. -/
theorem eq_at2 {n0 n1 : Nat} (j : (⟨2, ![n0, n1]⟩ : Shape).Idx) :
    j = at2 (j 0).val (ValueIdx.idx2_lt0 j) (j 1).val (ValueIdx.idx2_lt1 j) := by
  funext a; match a with | ⟨0, _⟩ => rfl | ⟨1, _⟩ => rfl

/-- THE SUM, RE-INDEXED. Dimension numbers that contract the left factor's axis 1 with the right factor's axis 0 and
    keep the left factor's axis 0 and the right factor's axis 1 as the result's rows and columns (`hl0`, `hr1`): the sum
    over the contraction index is the sum over k < K of l (p, k) · r (k, q) at the result index (p, q). -/
theorem product_sum_eq {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (j : (⟨2, ![A, B]⟩ : Shape).Idx) :
    ∑ q : d.contr.Idx, l (d.lhsIdx j q) * r (d.rhsIdx j q)
      = ∑ k : Fin K, l (at2 (j 0).val (ValueIdx.idx2_lt0 j) k.val k.isLt) * r (at2 k.val k.isLt (j 1).val (ValueIdx.idx2_lt1 j)) := by
  rw [← Equiv.sum_comp (ValueIdx.contrEquiv1 d K hr hs).symm]
  refine Finset.sum_congr rfl fun k _ => ?_
  have hk := ValueIdx.contrEquiv1_symm_val d K hr hs k
  have el : d.lhsIdx j ((ValueIdx.contrEquiv1 d K hr hs).symm k) = at2 (j 0).val (ValueIdx.idx2_lt0 j) k.val k.isLt :=
    funext fun a => Fin.ext (by
      match a with
      | ⟨0, _⟩ => exact hl0 j _
      | ⟨1, _⟩ => exact (d.lhsIdx_val_of_single hlc j _).trans hk)
  have er : d.rhsIdx j ((ValueIdx.contrEquiv1 d K hr hs).symm k) = at2 k.val k.isLt (j 1).val (ValueIdx.idx2_lt1 j) :=
    funext fun a => Fin.ext (by
      match a with
      | ⟨0, _⟩ => exact (d.rhsIdx_val_of_single hrc j _).trans hk
      | ⟨1, _⟩ => exact hr1 j _)
  rw [el, er]

end Cert.ProductAt

end
-- ==== Proof.BodyAt.lean ====
import proofs.«102570_j78718160601617_2_alg».proof.Proof.Gen.KernelIdeal.Skeleton
import proofs.«102570_j78718160601617_2_alg».proof.Proof.LibProductAt
import proofs.«102570_j78718160601617_2_alg».proof.Proof.PairPool
import Idealize.ShloMosaic.Lib.Pipeline.Value
import Idealize.ShloMosaic.Lib.ValueIdx
import Idealize.ShloMosaic.PureOps.Ideal.Laws

/-!
# What one grid step stores, entry by entry

A grid step holds two batch elements `X : [2, 1024, 64]`, the fused weight `Wt : [64, 128]` (input feature by output
column: columns `0..63` act on the first member of a pair, columns `64..127` on the second) and the bias `B : [1, 64]`.
It merges the two batch elements into `2048` rows, multiplies once by `Wt`, splits the rows again, cuts the product
into its two column halves, takes the maximum of the first half over the `1024` rows of each batch element, and adds
the second half and the bias. Read at `(p, j, o)` the stored value is

  `(max_i ∑ d, X[p,i,d] · Wt[d, o]  +  ∑ d, X[p,j,d] · Wt[d, 64 + o])  +  B[0, o]`,

the maximum taken from `-∞` (`stored_at`). Each layout step is read at an index by one small lemma; narrowing to
bf16 is the identity on the extended reals.
-/

noncomputable section

namespace Cert.KernelIdeal.BodyAt

open Cert.KernelIdeal Cert.KernelIdeal.Gen Idealize.ShloMosaic Idealize.ShloMosaic.ValueIdx Cert.PairPool

/-- Row `i` of batch element `p` among the `2048` merged rows. -/
abbrev merged (p : Fin 2) (i : Fin 1024) : Fin 2048 := ⟨p.val * 1024 + i.val, by have := p.isLt; have := i.isLt; omega⟩

/-! ## The layout steps, each at an index -/

/-- Merging the two batch elements: row `p·1024 + i` of the merged matrix is row `i` of batch element `p`. -/
theorem merge_at (v : FVec Ideal S2x1024x64 .f32) (p : Fin 2) (i : Fin 1024) (d : Fin 64) :
    shapeCast S2048x64 v shapeCasts_S2x1024x64_S2048x64 (ix2 (merged p i) d) = v (ix3 p i d) :=
  shapeCast_apply v _ _ _ (by
    rw [Shape.rowMajor_val_three, Shape.rowMajor_val_two]
    show (p.val * 1024 + i.val) * 64 + d.val = (p.val * 1024 + i.val) * 64 + d.val
    rfl)

/-- Splitting the rows again: entry `(p, i, c)` is entry `(p·1024 + i, c)` of the product. -/
theorem split_at (w : FVec Ideal S2048x128 .f32) (p : Fin 2) (i : Fin 1024) (c : Fin 128) :
    shapeCast S2x1024x128 w shapeCasts_S2048x128_S2x1024x128 (ix3 p i c) = w (ix2 (merged p i) c) :=
  shapeCast_apply w _ _ _ (by
    rw [Shape.rowMajor_val_three, Shape.rowMajor_val_two]
    show (p.val * 1024 + i.val) * 128 + c.val = (p.val * 1024 + i.val) * 128 + c.val
    rfl)

/-- The first column half. -/
theorem sliceLo_at (w : FVec Ideal S2x1024x128 .f32) (p : Fin 2) (i : Fin 1024) (o : Fin 64) :
    extractStridedSlice S2x1024x64 ![0, 0, 0] w slices_S2x1024x128_o0_0_0_S2x1024x64 (ix3 p i o) = w (ix3 p i (lo o)) :=
  extractStridedSlice_apply _ w _ (ix3 p i o) (ix3 p i (lo o)) (fun a => match a with
    | ⟨0, _⟩ => by show p.val = 0 + p.val; omega
    | ⟨1, _⟩ => by show i.val = 0 + i.val; omega
    | ⟨2, _⟩ => by show o.val = 0 + o.val; omega)

/-- The second column half. -/
theorem sliceHi_at (w : FVec Ideal S2x1024x128 .f32) (p : Fin 2) (i : Fin 1024) (o : Fin 64) :
    extractStridedSlice S2x1024x64 ![0, 0, 64] w slices_S2x1024x128_o0_0_64_S2x1024x64 (ix3 p i o) = w (ix3 p i (hi o)) :=
  extractStridedSlice_apply _ w _ (ix3 p i o) (ix3 p i (hi o)) (fun a => match a with
    | ⟨0, _⟩ => by show p.val = 0 + p.val; omega
    | ⟨1, _⟩ => by show i.val = 0 + i.val; omega
    | ⟨2, _⟩ => by show 64 + o.val = 64 + o.val; rfl)

/-- The reduced index `(p, o)` with the row `k` put back is `(p, k, o)`. -/
theorem lift_eq (h : S2x1024x64.Reduces [1] S2x64) (p : Fin 2) (o : Fin 64) (k : Fin (S2x1024x64.size 1)) :
    h.lift (ix2 p o) k = ix3 p (⟨k.val, k.isLt⟩ : Fin 1024) o := by
  funext c; apply Fin.ext
  fin_cases c <;> rfl

/-- The maximum over the rows of a batch element, from the accumulator's value. -/
theorem rowMax_at (v : FVec Ideal S2x1024x64 .f32) (acc : BitVec 32) (h : S2x1024x64.Reduces [1] S2x64)
    (hφ : FKind.Formats .f32) (hacc : acc = FKind.maximumf.neutral .f32 hφ) (p : Fin 2) (o : Fin 64) :
    multiReduction .maximumf [1] S2x64 v acc h hφ hacc (ix2 p o)
      = (Finset.univ : Finset (Fin 1024)).fold max (Ideal.ofBits .f32 acc) (fun i => v (ix3 p i o)) := by
  refine (Ideal.multiReduction_maximumf_single v acc h hφ hacc (ix2 p o)).trans ?_
  have hf : (v ∘ h.lift (ix2 p o)) = fun i : Fin 1024 => v (ix3 p i o) := funext fun k => by
    show v (h.lift (ix2 p o) k) = _
    rw [lift_eq]
    rfl
  rw [hf]
  rfl

/-- The row of maxima laid out as `[2, 1, 64]`. -/
theorem unsqueeze_at (w : FVec Ideal S2x64 .f32) (p : Fin 2) (o : Fin 64) :
    shapeCast S2x1x64 w shapeCasts_S2x64_S2x1x64 (ix3 p (0 : Fin 1) o) = w (ix2 p o) :=
  shapeCast_apply w _ _ _ (by
    rw [Shape.rowMajor_val_three, Shape.rowMajor_val_two]
    show p.val * 64 + o.val = (p.val * 1 + 0) * 64 + o.val
    omega)

/-- … and repeated along the `1024` rows. -/
theorem repeatRows_at (w : FVec Ideal S2x1x64 .f32) (p : Fin 2) (j : Fin 1024) (o : Fin 64) :
    broadcastTo S2x1024x64 w broadcasts_S2x1x64_S2x1024x64 (ix3 p j o) = w (ix3 p (0 : Fin 1) o) :=
  broadcastTo_apply w _ (ix3 p j o) (ix3 p (0 : Fin 1) o) (fun a => match a with
    | ⟨0, _⟩ => by show p.val = if (2 : Nat) = 1 then 0 else p.val; rw [if_neg (by decide)]
    | ⟨1, _⟩ => by show 0 = if (1 : Nat) = 1 then 0 else j.val; rw [if_pos rfl]
    | ⟨2, _⟩ => by show o.val = if (64 : Nat) = 1 then 0 else o.val; rw [if_neg (by decide)])

/-- The bias row laid out as `[1, 1, 64]`. -/
theorem unsqueezeBias_at (w : FVec Ideal S1x64 .f32) (o : Fin 64) :
    shapeCast S1x1x64 w shapeCasts_S1x64_S1x1x64 (ix3 (0 : Fin 1) (0 : Fin 1) o) = w (ix2 (0 : Fin 1) o) :=
  shapeCast_apply w _ _ _ (by
    rw [Shape.rowMajor_val_three, Shape.rowMajor_val_two]
    show 0 * 64 + o.val = (0 * 1 + 0) * 64 + o.val
    omega)

/-- … and repeated along both leading axes. -/
theorem repeatBias_at (w : FVec Ideal S1x1x64 .f32) (p : Fin 2) (j : Fin 1024) (o : Fin 64) :
    broadcastTo S2x1024x64 w broadcasts_S1x1x64_S2x1024x64 (ix3 p j o) = w (ix3 (0 : Fin 1) (0 : Fin 1) o) :=
  broadcastTo_apply w _ (ix3 p j o) (ix3 (0 : Fin 1) (0 : Fin 1) o) (fun a => match a with
    | ⟨0, _⟩ => by show 0 = if (1 : Nat) = 1 then 0 else p.val; rw [if_pos rfl]
    | ⟨1, _⟩ => by show 0 = if (1 : Nat) = 1 then 0 else j.val; rw [if_pos rfl]
    | ⟨2, _⟩ => by show o.val = if (64 : Nat) = 1 then 0 else o.val; rw [if_neg (by decide)])

/-! ## The product -/

theorem lhs0 (j : S2048x128.Idx) (q : dot_S2048x64_S64x128_S2048x128_1_0_0_1_n_n.contr.Idx) :
    (dot_S2048x64_S64x128_S2048x128_1_0_0_1_n_n.lhsIdx j q 0).val = (j 0).val := by
  unfold DotDims.lhsIdx
  rw [dif_neg (show ¬(0 : Fin S2048x64.rank) ∈ dot_S2048x64_S64x128_S2048x128_1_0_0_1_n_n.lhsBatch by decide),
    dif_pos (show (0 : Fin S2048x64.rank) ∈ dot_S2048x64_S64x128_S2048x128_1_0_0_1_n_n.lhsNonContracting by decide)]
  rfl

theorem rhs1 (j : S2048x128.Idx) (q : dot_S2048x64_S64x128_S2048x128_1_0_0_1_n_n.contr.Idx) :
    (dot_S2048x64_S64x128_S2048x128_1_0_0_1_n_n.rhsIdx j q 1).val = (j 1).val := by
  unfold DotDims.rhsIdx
  rw [dif_neg (show ¬(1 : Fin S64x128.rank) ∈ dot_S2048x64_S64x128_S2048x128_1_0_0_1_n_n.rhsBatch by decide),
    dif_pos (show (1 : Fin S64x128.rank) ∈ dot_S2048x64_S64x128_S2048x128_1_0_0_1_n_n.rhsNonContracting by decide)]
  rfl

/-- The product into a zero accumulator at `(r, c)`: row `r` of the left factor against column `c` of the right one. -/
theorem product_at (l : FVec Ideal S2048x64 .bf16) (r : FVec Ideal S64x128 .bf16) (row : Fin 2048) (c : Fin 128) :
    matmul dot_S2048x64_S64x128_S2048x128_1_0_0_1_n_n none l r (constant (F := Ideal) S2048x128 .f32 0x00000000#32) (ix2 row c)
      = ∑ k : Fin 64, l (ix2 row k) * r (ix2 k c) := by
  refine (Ideal.matmul_constant_zero_apply dot_S2048x64_S64x128_S2048x128_1_0_0_1_n_n none l r (ix2 row c)).trans ?_
  refine (Cert.ProductAt.product_sum_eq dot_S2048x64_S64x128_S2048x128_1_0_0_1_n_n rfl rfl rfl rfl lhs0 rhs1 l r (ix2 row c)).trans ?_
  refine Finset.sum_congr rfl fun k _ => ?_
  have el : Cert.ProductAt.at2 ((ix2 row c : S2048x128.Idx) 0).val (ValueIdx.idx2_lt0 _) k.val k.isLt = (ix2 row k : S2048x64.Idx) :=
    funext fun a => by match a with | ⟨0, _⟩ => rfl | ⟨1, _⟩ => rfl
  have er : Cert.ProductAt.at2 k.val k.isLt ((ix2 row c : S2048x128.Idx) 1).val (ValueIdx.idx2_lt1 _) = (ix2 k c : S64x128.Idx) :=
    funext fun a => by match a with | ⟨0, _⟩ => rfl | ⟨1, _⟩ => rfl
  rw [el, er]

/-! ## The stored value -/

/-- The product of the merged rows with the fused weight, rows split again: `[2, 1024, 128]`. -/
def splitProduct (v0 : Vec Ideal S2x1024x64 .f32) (v3 : Vec Ideal S64x128 .f32) : FVec Ideal S2x1024x128 .f32 :=
  shapeCast S2x1024x128
    (matmul dot_S2048x64_S64x128_S2048x128_1_0_0_1_n_n none
      (truncf .bf16 (shapeCast S2048x64 v0 shapeCasts_S2x1024x64_S2048x64) bitsLt_bf16_f32)
      (truncf .bf16 (shapeCast S64x128 v3 shapeCasts_S64x128_S64x128) bitsLt_bf16_f32)
      (constant (F := Ideal) S2048x128 .f32 0x00000000#32))
    shapeCasts_S2048x128_S2x1024x128

/-- Entry `(p, i, c)` of it: row `i` of batch element `p` against column `c` of the weight. -/
theorem splitProduct_at (v0 : Vec Ideal S2x1024x64 .f32) (v3 : Vec Ideal S64x128 .f32) (p : Fin 2) (i : Fin 1024) (c : Fin 128) :
    splitProduct v0 v3 (ix3 p i c) = ∑ d : Fin 64, v0 (ix3 p i d) * v3 (ix2 d c) := by
  unfold splitProduct
  refine (split_at _ p i c).trans ?_
  refine (product_at _ _ (merged p i) c).trans ?_
  refine Finset.sum_congr rfl fun d _ => ?_
  show shapeCast S2048x64 v0 shapeCasts_S2x1024x64_S2048x64 (ix2 (merged p i) d)
    * shapeCast S64x128 v3 shapeCasts_S64x128_S64x128 (ix2 d c) = _
  rw [merge_at, shapeCast_self]

/-- The body's stored value is this tree of operations. -/
theorem stored_eq (v0 : Vec Ideal S2x1024x64 .f32) (v3 : Vec Ideal S64x128 .f32) (v14 : Vec Ideal S1x64 .f32) :
    k0_pay1 (F := Ideal) v0 v3 v14
      = addf (addf
          (broadcastTo S2x1024x64
            (shapeCast S2x1x64
              (multiReduction .maximumf [1] S2x64
                (extractStridedSlice S2x1024x64 ![0, 0, 0] (splitProduct v0 v3) slices_S2x1024x128_o0_0_0_S2x1024x64)
                0xFF800000#32 reduces_S2x1024x64_S2x64 (.inl rfl) rfl)
              shapeCasts_S2x64_S2x1x64)
            broadcasts_S2x1x64_S2x1024x64)
          (extractStridedSlice S2x1024x64 ![0, 0, 64] (splitProduct v0 v3) slices_S2x1024x128_o0_0_64_S2x1024x64))
        (broadcastTo S2x1024x64
          (shapeCast S1x1x64 (shapeCast S1x64 v14 shapeCasts_S1x64_S1x64) shapeCasts_S1x64_S1x1x64)
          broadcasts_S1x1x64_S2x1024x64) := rfl

/-- THE STORED VALUE AT `(p, j, o)`. -/
theorem stored_at (v0 : Vec Ideal S2x1024x64 .f32) (v3 : Vec Ideal S64x128 .f32) (v14 : Vec Ideal S1x64 .f32)
    (p : Fin 2) (j : Fin 1024) (o : Fin 64) :
    k0_pay1 (F := Ideal) v0 v3 v14 (ix3 p j o)
      = ((Finset.univ : Finset (Fin 1024)).fold max (Ideal.ofBits .f32 0xFF800000#32)
            (fun i => ∑ d : Fin 64, v0 (ix3 p i d) * v3 (ix2 d (lo o)))
          + ∑ d : Fin 64, v0 (ix3 p j d) * v3 (ix2 d (hi o)))
        + v14 (ix2 (0 : Fin 1) o) := by
  rw [stored_eq]
  refine congrArg₂ (· + ·) (congrArg₂ (· + ·) ?_ ?_) ?_
  · refine (repeatRows_at _ p j o).trans ?_
    refine (unsqueeze_at _ p o).trans ?_
    refine (rowMax_at _ _ _ _ _ p o).trans ?_
    refine congrArg (fun f => (Finset.univ : Finset (Fin 1024)).fold max (Ideal.ofBits .f32 0xFF800000#32) f) ?_
    funext i
    exact (sliceLo_at _ p i o).trans (splitProduct_at v0 v3 p i (lo o))
  · exact (sliceHi_at _ p j o).trans (splitProduct_at v0 v3 p j (hi o))
  · refine (repeatBias_at _ p j o).trans ?_
    refine (unsqueezeBias_at _ o).trans ?_
    rw [shapeCast_self]

end Cert.KernelIdeal.BodyAt

end
-- ==== Proof.LibConcatAt.lean ====
import Idealize.ShloMosaic.Lib.ValueIdx
import Idealize.ShloMosaic.Lib.Pipeline.Value

/-!
# A concatenation of matrices read at an entry

Two corollaries of the library's reading of a concatenation at an index (`concatenate_apply_piece`), in the two
forms a row-by-row or column-by-column assembly needs, with every index written by its coordinates:

* matrices [Wₖ, N] stacked on top of each other (axis 0) into [R, N]: entry `(j, r)` of the stack is entry
  `(p, r)` of piece `k` when the pieces before `k` have `pre` rows together and `j = pre + p`;
* matrices [N, Wₖ] set side by side (axis 1) into [N, K]: entry `(n, j)` is entry `(n, p)` of piece `k` when the
  pieces before `k` have `pre` columns together and `j = pre + p`.

The piece is named by an equation `xs[k]? = some ⟨shape, x₁⟩`, which for a literal list and a literal `k` is
decided by walking the list and tells Lean what `x₁` is; the count `pre` is a sum over a literal prefix of the list. Nothing here depends
on what the entries are.
-/

namespace Cert.LibConcatAt

open Idealize.ShloMosaic Idealize.ShloMosaic.ValueIdx

variable {α : Type}

/-- The extents of the pieces along axis `a` of the result, as the library's lemma sums them. -/
abbrev extents {t : Shape} (a : Fin t.rank) (ss : List Shape) : List Nat :=
  ss.map fun s => if h : s.rank = t.rank then s.size (a.cast h.symm) else 0

/-- Matrices stacked on top of each other, read at `(j, r)`: row `p` of piece `k`, where `j = pre + p` and `pre`
    is the number of rows of the pieces before `k`. -/
theorem stacked_at {R N W : ℕ} (xs : List ((s : Shape) × (s.Idx → α)))
    (h : Shape.Concatenates (xs.map (·.1)) ⟨2, ![R, N]⟩ (0 : Fin 2)) (j : Fin R) (r : Fin N)
    (k : ℕ) (x₁ : (⟨2, ![W, N]⟩ : Shape).Idx → α) (hxk : xs[k]? = some ⟨⟨2, ![W, N]⟩, x₁⟩)
    (pre : ℕ) (hpre : (extents (t := ⟨2, ![R, N]⟩) (0 : Fin 2) ((xs.take k).map (·.1))).sum = pre)
    (p : Fin W) (hj : pre + p.val = j.val) :
    concatenate ⟨2, ![R, N]⟩ (0 : Fin 2) xs h (ix2 j r) = x₁ (ix2 p r) := by
  obtain ⟨hk, hxk'⟩ := List.getElem?_eq_some_iff.mp hxk
  exact concatenate_apply_piece (t := ⟨2, ![R, N]⟩) (0 : Fin 2) xs h (ix2 j r) k hk ⟨2, ![W, N]⟩ x₁ hxk' rfl pre hpre (ix2 p r)
    (fun b hb => by
      match b with
      | ⟨0, _⟩ => exact absurd rfl hb
      | ⟨1, _⟩ => rfl) hj

/-- Matrices set side by side, read at `(n, j)`: column `p` of piece `k`, where `j = pre + p` and `pre` is the
    number of columns of the pieces before `k`. -/
theorem sideBySide_at {N K W : ℕ} (xs : List ((s : Shape) × (s.Idx → α)))
    (h : Shape.Concatenates (xs.map (·.1)) ⟨2, ![N, K]⟩ (1 : Fin 2)) (n : Fin N) (j : Fin K)
    (k : ℕ) (x₁ : (⟨2, ![N, W]⟩ : Shape).Idx → α) (hxk : xs[k]? = some ⟨⟨2, ![N, W]⟩, x₁⟩)
    (pre : ℕ) (hpre : (extents (t := ⟨2, ![N, K]⟩) (1 : Fin 2) ((xs.take k).map (·.1))).sum = pre)
    (p : Fin W) (hj : pre + p.val = j.val) :
    concatenate ⟨2, ![N, K]⟩ (1 : Fin 2) xs h (ix2 n j) = x₁ (ix2 n p) := by
  obtain ⟨hk, hxk'⟩ := List.getElem?_eq_some_iff.mp hxk
  exact concatenate_apply_piece (t := ⟨2, ![N, K]⟩) (1 : Fin 2) xs h (ix2 n j) k hk ⟨2, ![N, W]⟩ x₁ hxk' rfl pre hpre (ix2 n p)
    (fun b hb => by
      match b with
      | ⟨0, _⟩ => rfl
      | ⟨1, _⟩ => exact absurd rfl hb) hj

/-- Rows [1, N] stacked into [R, N]: row `j` of the stack is the `j`-th piece. The piece is found by walking the
    list to position `j`; that the `j` pieces before it are one row each is a sum over the prefix. -/
theorem stackedRows_at {R N : ℕ} (xs : List ((s : Shape) × (s.Idx → α)))
    (h : Shape.Concatenates (xs.map (·.1)) ⟨2, ![R, N]⟩ (0 : Fin 2)) (j : Fin R) (r : Fin N)
    (x₁ : (⟨2, ![1, N]⟩ : Shape).Idx → α) (hxk : xs[j.val]? = some ⟨⟨2, ![1, N]⟩, x₁⟩)
    (hpre : (extents (t := ⟨2, ![R, N]⟩) (0 : Fin 2) ((xs.take j.val).map (·.1))).sum = j.val) :
    concatenate ⟨2, ![R, N]⟩ (0 : Fin 2) xs h (ix2 j r) = x₁ (ix2 0 r) :=
  stacked_at xs h j r j.val x₁ hxk j.val hpre 0 rfl

/-- Columns [N, 1] set side by side into [N, K]: column `j` of the result is the `j`-th piece. -/
theorem columns_at {N K : ℕ} (xs : List ((s : Shape) × (s.Idx → α)))
    (h : Shape.Concatenates (xs.map (·.1)) ⟨2, ![N, K]⟩ (1 : Fin 2)) (n : Fin N) (j : Fin K)
    (x₁ : (⟨2, ![N, 1]⟩ : Shape).Idx → α) (hxk : xs[j.val]? = some ⟨⟨2, ![N, 1]⟩, x₁⟩)
    (hpre : (extents (t := ⟨2, ![N, K]⟩) (1 : Fin 2) ((xs.take j.val).map (·.1))).sum = j.val) :
    concatenate ⟨2, ![N, K]⟩ (1 : Fin 2) xs h (ix2 n j) = x₁ (ix2 n 0) :=
  sideBySide_at xs h n j j.val x₁ hxk j.val hpre 0 rfl

end Cert.LibConcatAt
-- ==== Proof.FusedWeight.lean ====
import proofs.«102570_j78718160601617_2_alg».proof.Proof.Gen.KernelIdeal.Frame
import proofs.«102570_j78718160601617_2_alg».proof.Proof.LibConcatAt
import proofs.«102570_j78718160601617_2_alg».proof.Proof.PairPool
import Idealize.ShloMosaic.Lib.StableHlo.Run
import Idealize.ShloMosaic.Lib.Pipeline.Value
import Idealize.ShloMosaic.Lib.ValueIdx
import Idealize.ShloMosaic.PureOps.Ideal

/-!
# The fused weight and the bias row the grid steps are given

Before the grid runs, the weight `W : [64, 128]` (output feature by the two concatenated input rows) is cut into its
two column halves, each half is transposed, and the two transposes are set side by side: the fused weight
`Wt : [64, 128]` has `Wt[d, o] = W[o, d]` and `Wt[d, 64 + o] = W[o, 64 + d]` (`fused_lo_at`, `fused_hi_at`). The bias
`b : [64]` is recast as one row `[1, 64]` (`biasRow_at`).
-/

noncomputable section

namespace Cert.KernelIdeal.FusedWeight

open Cert.KernelIdeal Cert.KernelIdeal.Gen Idealize.ShloMosaic Idealize.ShloMosaic.TcCoe Idealize.SL.Sem
open Idealize.ShloMosaic.StableHlo Idealize.ShloMosaic.ValueIdx Cert.PairPool

variable (m : (ℓ : Loc nD τ sig) → Buf (Elt Ideal) ℓ)

/-- A column half of `W`, transposed. -/
abbrev halfT (W : S64x128.Idx → EReal) (off : Fin 2 → Nat) (h : S64x128.Slices off S64x64) : S64x64.Idx → EReal :=
  transpose S64x64 [1, 0] (extractStridedSlice S64x64 off W h) transposes_S64x64_S64x64_1_0

/-- The two transposed halves, in the order they are set side by side. -/
abbrev halves (W : S64x128.Idx → EReal) : List ((s : Shape) × (s.Idx → EReal)) :=
  [⟨S64x64, halfT W ![0, 0] slices_S64x128_S64x64_0_0⟩, ⟨S64x64, halfT W ![0, 64] slices_S64x128_S64x64_0_64⟩]

/-- What the grid steps find as the fused weight. -/
theorem fused_eq (c : Dev nD) :
    (V m c main_v4 : S64x128.Idx → EReal)
      = concatenate S64x128 1 (halves (m ((c : Thread nD τ).loc main_arg1))) concatenates_S64x64_S64x64_S64x128_d1 := by
  dsimp only [Gen.V, Gen.hostOps0]
  after_results

/-- A transposed first half at `(d, o)` is `W[o, d]`. -/
theorem halfT_lo_at (W : S64x128.Idx → EReal) (d o : Fin 64) :
    halfT W ![0, 0] slices_S64x128_S64x64_0_0 (ix2 d o) = W (ix2 o (lo d)) := by
  refine (transpose_apply [1, 0] _ transposes_S64x64_S64x64_1_0 (ix2 d o) (ix2 o d) (fun b => match b with
    | ⟨0, _⟩ => rfl
    | ⟨1, _⟩ => rfl)).trans ?_
  exact extractStridedSlice_apply _ W _ (ix2 o d) (ix2 o (lo d)) (fun a => match a with
    | ⟨0, _⟩ => by show o.val = 0 + o.val; omega
    | ⟨1, _⟩ => by show d.val = 0 + d.val; omega)

/-- A transposed second half at `(d, o)` is `W[o, 64 + d]`. -/
theorem halfT_hi_at (W : S64x128.Idx → EReal) (d o : Fin 64) :
    halfT W ![0, 64] slices_S64x128_S64x64_0_64 (ix2 d o) = W (ix2 o (hi d)) := by
  refine (transpose_apply [1, 0] _ transposes_S64x64_S64x64_1_0 (ix2 d o) (ix2 o d) (fun b => match b with
    | ⟨0, _⟩ => rfl
    | ⟨1, _⟩ => rfl)).trans ?_
  exact extractStridedSlice_apply _ W _ (ix2 o d) (ix2 o (hi d)) (fun a => match a with
    | ⟨0, _⟩ => by show o.val = 0 + o.val; omega
    | ⟨1, _⟩ => by show 64 + d.val = 64 + d.val; rfl)

/-- The fused weight's first `64` columns: `Wt[d, o] = W[o, d]`. -/
theorem fused_lo_at (c : Dev nD) (d o : Fin 64) :
    (V m c main_v4 : S64x128.Idx → EReal) (ix2 d (lo o)) = m ((c : Thread nD τ).loc main_arg1) (ix2 o (lo d)) := by
  rw [fused_eq]
  refine (Cert.LibConcatAt.sideBySide_at (N := 64) (K := 128) (W := 64) (halves (m ((c : Thread nD τ).loc main_arg1)))
    concatenates_S64x64_S64x64_S64x128_d1 d (lo o) 0 (halfT (m ((c : Thread nD τ).loc main_arg1)) ![0, 0] slices_S64x128_S64x64_0_0)
    rfl 0 rfl o (Nat.zero_add _)).trans ?_
  exact halfT_lo_at _ d o

/-- The fused weight's last `64` columns: `Wt[d, 64 + o] = W[o, 64 + d]`. -/
theorem fused_hi_at (c : Dev nD) (d o : Fin 64) :
    (V m c main_v4 : S64x128.Idx → EReal) (ix2 d (hi o)) = m ((c : Thread nD τ).loc main_arg1) (ix2 o (hi d)) := by
  rw [fused_eq]
  refine (Cert.LibConcatAt.sideBySide_at (N := 64) (K := 128) (W := 64) (halves (m ((c : Thread nD τ).loc main_arg1)))
    concatenates_S64x64_S64x64_S64x128_d1 d (hi o) 1 (halfT (m ((c : Thread nD τ).loc main_arg1)) ![0, 64] slices_S64x128_S64x64_0_64)
    rfl 64 rfl o rfl).trans ?_
  exact halfT_hi_at _ d o

/-- What the grid steps find as the bias row. -/
theorem biasRow_eq (c : Dev nD) :
    (V m c main_v5 : S1x64.Idx → EReal) = shapeCast S1x64 (m ((c : Thread nD τ).loc main_arg2)) shapeCasts_S64_S1x64 := by
  dsimp only [Gen.V, Gen.hostOps0]
  after_results
  rfl

/-- A vector `[64]` recast as a row `[1, 64]`, at `(0, o)`. -/
theorem row_at (v : FVec Ideal S64 .f32) (o : Fin 64) :
    shapeCast S1x64 v shapeCasts_S64_S1x64 (ix2 (0 : Fin 1) o) = v (ix1 o) :=
  shapeCast_apply v _ _ _ (by
    rw [Shape.rowMajor_val_one, Shape.rowMajor_val_two]
    show o.val = 0 * 64 + o.val
    omega)

/-- The bias row at `(0, o)` is `b[o]`. -/
theorem biasRow_at (c : Dev nD) (o : Fin 64) :
    (V m c main_v5 : S1x64.Idx → EReal) (ix2 (0 : Fin 1) o) = m ((c : Thread nD τ).loc main_arg2) (ix1 o) := by
  rw [biasRow_eq]
  exact row_at _ o

end Cert.KernelIdeal.FusedWeight

end
-- ==== Proof.WholeArray.lean ====
import proofs.«102570_j78718160601617_2_alg».proof.Proof.Gen.KernelIdeal.Value
import proofs.«102570_j78718160601617_2_alg».proof.Proof.BodyAt
import proofs.«102570_j78718160601617_2_alg».proof.Proof.FusedWeight
import proofs.«102570_j78718160601617_2_alg».proof.Proof.PairPool
import Idealize.ShloMosaic.Lib.Pipeline.Value

/-!
# The result array is the pooled layer

The grid has two steps. Step `t` is given batch elements `2t` and `2t + 1` of `x` (all rows, all features), the whole
fused weight and the whole bias row, and writes batch elements `2t` and `2t + 1` of the result. The maximum of the
pooled layer runs over the rows of ONE batch element, so what a step stores at `(p, j, o)` is the pooled layer of the whole
arguments at `(2t + p, j, o)` (`step_at`, from the stored value read entry by entry and the fused weight read entry by
entry). The two steps' blocks tile the result array (`cover`), so after the run it holds the pooled layer (`final`, `run`).
-/

noncomputable section

namespace Cert.KernelIdeal.WholeArray

open Cert.KernelIdeal Cert.KernelIdeal.Gen Cert.KernelIdeal.Value
open Idealize.ShloMosaic Idealize.ShloMosaic.TcCoe Idealize.SL.Sem Idealize.ShloMosaic.ValueIdx Cert.PairPool
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- One step, over plain variables: if `X` is batch elements `2T`, `2T + 1` of `x`, `Wt` the fused weight of `W` and `B`
    the bias as a row, the value stored at `y` is the pooled layer at the index `k` that is `y` moved `2T` batch elements
    along. -/
theorem step_at (x : S4x1024x64.Idx → EReal) (W : S64x128.Idx → EReal) (bias : S64.Idx → EReal)
    (X : Vec Ideal S2x1024x64 .f32) (Wt : Vec Ideal S64x128 .f32) (B : Vec Ideal S1x64 .f32) (T : Nat) (hT : T < 2)
    (hX : ∀ (p : Fin 2) (i : Fin 1024) (d : Fin 64),
      X (ix3 p i d) = x (ix3 (⟨2 * T + p.val, by have := p.isLt; omega⟩ : Fin 4) i d))
    (hlo : ∀ d o : Fin 64, Wt (ix2 d (lo o)) = W (ix2 o (lo d)))
    (hhi : ∀ d o : Fin 64, Wt (ix2 d (hi o)) = W (ix2 o (hi d)))
    (hB : ∀ o : Fin 64, B (ix2 (0 : Fin 1) o) = bias (ix1 o))
    (y : S2x1024x64.Idx) (k : S4x1024x64.Idx)
    (h0 : (k 0).val = 2 * T + (y 0).val) (h1 : (k 1).val = (y 1).val) (h2 : (k 2).val = (y 2).val) :
    k0_pay1 (F := Ideal) X Wt B y = pooled x W bias k := by
  obtain ⟨p, j, o, rfl⟩ : ∃ (p : Fin 2) (j : Fin 1024) (o : Fin 64), y = ix3 p j o := ⟨y 0, y 1, y 2, eq_ix3 y⟩
  have hb : 2 * T + p.val < 4 := by have := p.isLt; omega
  obtain ⟨b, j', o', rfl⟩ : ∃ (b : Fin 4) (j' : Fin 1024) (o' : Fin 64), k = ix3 b j' o' := ⟨k 0, k 1, k 2, eq_ix3 k⟩
  obtain rfl : b = ⟨2 * T + p.val, hb⟩ := Fin.ext h0
  obtain rfl : j' = j := Fin.ext h1
  obtain rfl : o' = o := Fin.ext h2
  rw [BodyAt.stored_at, pooled_ix3]
  unfold pooledAt rowTerm colTerm
  simp only [hX, hlo, hhi, hB]

/-- The printed index maps over the two steps: the `x` window and the result window move one block (two batch
    elements) per step, the weight and bias windows stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- What step `t` writes back is block `t` of the pooled layer of the arguments. -/
theorem flushed_eq (c : Dev nD) (t : Fin cfg0.N) :
    (dats m 0 c).flushed 3 t = ((cfg0.win 3).blk t).view.read (Elt Ideal)
      (pooled (m ((c : Thread nD τ).loc main_arg0)) (m ((c : Thread nD τ).loc main_arg1)) (m ((c : Thread nD τ).loc main_arg2))) := by
  rw [Value.flushed3]
  unfold out0_3
  rw [View.canon_unit_zero hz3]
  simp only [View.ld_unit_zero (S := S2x1024x64) hz3, View.ld_unit_zero (S := S64x128) hz2, View.ld_unit_zero (S := S1x64) hz2]
  obtain ⟨e00, e01, e02, e10, e11, e20, e21, e30, e31, e32⟩ := idx_facts t
  have hN : cfg0.N = 2 := N_0
  have ht : t.val < 2 := by have := t.isLt; omega
  funext y
  show k0_pay1 (F := Ideal) (iblk m c 0 t) (iblk m c 1 t) (iblk m c 2 t) y
    = pooled (m ((c : Thread nD τ).loc main_arg0)) (m ((c : Thread nD τ).loc main_arg1)) (m ((c : Thread nD τ).loc main_arg2))
        (((cfg0.win 3).blk t).view.emb y)
  refine step_at _ _ _ (iblk m c 0 t) (iblk m c 1 t) (iblk m c 2 t) t.val ht ?_ ?_ ?_ ?_ y _ ?_ ?_ ?_
  · intro p i d
    show V m c main_arg0 (((cfg0.win 0).blk t).view.emb (ix3 p i d)) = _
    rw [V_main_arg0 m c]
    refine congrArg _ (funext fun a => Fin.ext ?_)
    match a with
    | ⟨0, _⟩ => show win0_0.index t (0 : Fin 3) * 2 + 1 * p.val = 2 * t.val + p.val; omega
    | ⟨1, _⟩ => show win0_0.index t (1 : Fin 3) * 1024 + 1 * i.val = i.val; omega
    | ⟨2, _⟩ => show win0_0.index t (2 : Fin 3) * 64 + 1 * d.val = d.val; omega
  · intro d o
    show V m c main_v4 (((cfg0.win 1).blk t).view.emb (ix2 d (lo o))) = _
    have he : ((cfg0.win 1).blk t).view.emb (ix2 d (lo o)) = (ix2 d (lo o) : S64x128.Idx) := funext fun a => Fin.ext (by
      match a with
      | ⟨0, _⟩ => show win0_1.index t (0 : Fin 2) * 64 + 1 * d.val = d.val; omega
      | ⟨1, _⟩ => show win0_1.index t (1 : Fin 2) * 128 + 1 * (lo o).val = (lo o).val; omega)
    rw [he]
    exact FusedWeight.fused_lo_at m c d o
  · intro d o
    show V m c main_v4 (((cfg0.win 1).blk t).view.emb (ix2 d (hi o))) = _
    have he : ((cfg0.win 1).blk t).view.emb (ix2 d (hi o)) = (ix2 d (hi o) : S64x128.Idx) := funext fun a => Fin.ext (by
      match a with
      | ⟨0, _⟩ => show win0_1.index t (0 : Fin 2) * 64 + 1 * d.val = d.val; omega
      | ⟨1, _⟩ => show win0_1.index t (1 : Fin 2) * 128 + 1 * (hi o).val = (hi o).val; omega)
    rw [he]
    exact FusedWeight.fused_hi_at m c d o
  · intro o
    show V m c main_v5 (((cfg0.win 2).blk t).view.emb (ix2 (0 : Fin 1) o)) = _
    have he : ((cfg0.win 2).blk t).view.emb (ix2 (0 : Fin 1) o) = (ix2 (0 : Fin 1) o : S1x64.Idx) := funext fun a => Fin.ext (by
      match a with
      | ⟨0, _⟩ => show win0_2.index t (0 : Fin 2) * 1 + 1 * 0 = 0; omega
      | ⟨1, _⟩ => show win0_2.index t (1 : Fin 2) * 64 + 1 * o.val = o.val; omega)
    rw [he]
    exact FusedWeight.biasRow_at m c o
  · show win0_3.index t (0 : Fin 3) * 2 + 1 * (y 0).val = 2 * t.val + (y 0).val; omega
  · show win0_3.index t (1 : Fin 3) * 1024 + 1 * (y 1).val = (y 1).val; omega
  · show win0_3.index t (2 : Fin 3) * 64 + 1 * (y 2).val = (y 2).val; omega

/-- An index of the result array is in step `t`'s block iff each coordinate is in the block's range on its axis. -/
theorem mem_blk (t : Fin cfg0.N) (i : S4x1024x64.Idx) :
    i ∈ ((cfg0.win 3).blk t).view.set ↔ ∀ a : Fin 3, win0_3.index t a * S2x1024x64.size a ≤ (i a).val
      ∧ (i a).val < win0_3.index t a * S2x1024x64.size a + S2x1024x64.size a := by
  show i ∈ ((View.whole main_v6).slice (win0_3.rect t)).set ↔ _
  rw [View.set_slice_whole, Rect.mem_set_unit]
  exact Iff.rfl

/-- Every index of the result array is in the block of the step that owns its batch element. -/
theorem cover (i : S4x1024x64.Idx) : ∃ t : Fin cfg0.N, (cfg0.win 3).flush t = true ∧ i ∈ ((cfg0.win 3).blk t).view.set := by
  have hN : cfg0.N = 2 := N_0
  have hi0 : (i 0).val < 4 := (i 0).isLt
  have hi1 : (i 1).val < 1024 := (i 1).isLt
  have hi2 : (i 2).val < 64 := (i 2).isLt
  obtain ⟨t, ht⟩ : ∃ t : Fin cfg0.N, t.val = (i 0).val / 2 := ⟨⟨(i 0).val / 2, by omega⟩, rfl⟩
  obtain ⟨-, -, -, -, -, -, -, e30, e31, e32⟩ := idx_facts t
  refine ⟨t, flush0_3 t, ?_⟩
  rw [mem_blk]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 64 ≤ (i 2).val ∧ (i 2).val < win0_3.index t (2 : Fin 3) * 64 + 64; omega

/-- After the run the result array is the pooled layer of the arguments. -/
theorem final (c : Dev nD) : (dats m 0 c).arrAt 3 cfg0.N
    = pooled (m ((c : Thread nD τ).loc main_arg0)) (m ((c : Thread nD τ).loc main_arg1)) (m ((c : Thread nD τ).loc main_arg2)) :=
  (dats m 0 c).arrAt_eq_of_cover 3 _ (fun t _ => flushed_eq m c t) cover

/-- The run, read: the result at the pooled layer of the arguments, the arguments unchanged. -/
theorem run : θ_run defs (onTc (τ := τ) (main (F := Ideal))) ⟨m, fun _ => 0, ρ⟩ fun r => ∀ c : Dev nD,
      r.2.mem ((c : Thread nD τ).loc main_v6)
        = pooled (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.WholeArray

end
-- ==== Proof.lean ====
/-
  A pairwise linear layer pooled by a maximum, computed two ways.

  Inputs: `x : [4, 1024, 64]`, a weight `W : [64, 128]` whose row `o` is two rows of length 64 laid end to end, and a
  bias `b : [64]`. For a batch element `β` and a pair of rows `(i, j)` the layer is
      y[β, i, j, o] = (∑ d, x[β,i,d] · W[o, d]  +  ∑ d, x[β,j,d] · W[o, 64 + d])  +  b[o],
  and the result is its maximum over `i`, from `-∞`:  out[β, j, o] = max_i y[β, i, j, o].

  The reference builds `y` whole and reduces it. The kernel never builds it: since only the first sum depends on `i`, and
  `u ↦ (u + c) + e` is monotone on the extended reals and keeps `-∞` fixed, the maximum over `i` is taken of the first sum
  alone and the other two terms are added afterwards (`Cert.LibFoldMax.fold_max_add_add`; nothing has to be finite). It also
  fuses the two halves of the weight into one matrix `Wt : [64, 128]`, `Wt[d, o] = W[o, d]`, `Wt[d, 64 + o] = W[o, 64 + d]`,
  so that one product of the rows of two batch elements with `Wt` gives both sums, and runs over the batch two elements
  per grid step.

  The modules: `LibFoldMax` proves the law above; `PairPool` states the pooled layer as one function of the three arrays;
  `RefPooled` reads the reference's reduction at an index and identifies it with that function; `BodyAt` reads what one
  grid step stores, entry by entry; `FusedWeight` reads the fused weight and the bias row entry by entry; `WholeArray`
  shows each step's block is a block of the pooled layer and that the two blocks tile the result. Below, the five claims:
  the three programs run and leave their arguments unchanged, the idealized kernel is the kernel's own text read over the
  extended reals (nothing was rewritten), and the two idealized programs end with the same array.
-/
import proofs.«102570_j78718160601617_2_alg».proof.Defs
import proofs.«102570_j78718160601617_2_alg».proof.Proof.Gen.Kernel
import proofs.«102570_j78718160601617_2_alg».proof.Proof.Gen.Kernel.Skeleton
import proofs.«102570_j78718160601617_2_alg».proof.Proof.Gen.Kernel.Launch
import proofs.«102570_j78718160601617_2_alg».proof.Proof.Gen.Kernel.Points
import proofs.«102570_j78718160601617_2_alg».proof.Proof.Gen.Kernel.Frame
import proofs.«102570_j78718160601617_2_alg».proof.Proof.Gen.KernelIdeal
import proofs.«102570_j78718160601617_2_alg».proof.Proof.Gen.KernelIdeal.Skeleton
import proofs.«102570_j78718160601617_2_alg».proof.Proof.Gen.KernelIdeal.Launch
import proofs.«102570_j78718160601617_2_alg».proof.Proof.Gen.KernelIdeal.Points
import proofs.«102570_j78718160601617_2_alg».proof.Proof.Gen.KernelIdeal.Frame
import proofs.«102570_j78718160601617_2_alg».proof.Proof.Gen.ReferenceIdeal
import proofs.«102570_j78718160601617_2_alg».proof.Proof.Gen.Pre_finite_inputs
import proofs.«102570_j78718160601617_2_alg».proof.Proof.Gen.KernelIdeal.Value
import proofs.«102570_j78718160601617_2_alg».proof.Proof.Gen.ReferenceIdeal.Run
import proofs.«102570_j78718160601617_2_alg».proof.Proof.Gen.ReferenceIdeal.Read
import proofs.«102570_j78718160601617_2_alg».proof.Proof.PairPool
import proofs.«102570_j78718160601617_2_alg».proof.Proof.RefPooled
import proofs.«102570_j78718160601617_2_alg».proof.Proof.WholeArray
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel's text was rewritten for the reading over the extended reals. -/
theorem preserves : Cert.preserves_Kernel_KernelIdeal := trivial

/-- Both programs end with the pooled layer of their (agreeing) arguments: the kernel by `WholeArray.run`, the reference by
    its run and `RefPooled.ref_eq_pooled`. -/
theorem algebraic : Cert.algebraic_KernelIdeal_ReferenceIdeal := by
  intro m ρ m' ρ' _ hagree
  refine ⟨_, Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefPooled.ref_eq_pooled,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
